-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S1024 : Shape := ⟨1, ![1024]⟩
abbrev S64x1024 : Shape := ⟨2, ![64, 1024]⟩
abbrev S64 : Shape := ⟨1, ![64]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S131072 : S_.BroadcastsInDim S131072 (![] : Fin 0 → Fin S131072.rank)
  reducesTo_S131072_S_d0 : S131072.ReducesTo [0] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S1024 .f32) (main_arg5 : FVec F S64x1024 .f32) (main_arg6 : FVec F S64 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S131072x512 .f32) (main_arg1 : FVec F S131072x512 .f32) (main_arg2 : FVec F S131072 .f32) (main_arg3 : FVec F S1024 .f32) (main_arg4 : FVec F S1024 .f32) (main_arg5 : FVec F S64x1024 .f32) (main_arg6 : FVec F S64 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  let main_v9 : FVec F S131072 .f32 := Host.absf main_arg2
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S131072x512 : Shape := ⟨2, ![131072, 512]⟩
abbrev S131072 : Shape := ⟨1, ![131072]⟩
abbrev S1024 : Shape := ⟨1, ![1024]⟩
abbrev S64x1024 : Shape := ⟨2, ![64, 1024]⟩
abbrev S64 : Shape := ⟨1, ![64]⟩
abbrev S131072x1 : Shape := ⟨2, ![131072, 1]⟩
abbrev S512 : Shape := ⟨1, ![512]⟩
abbrev S1x512 : Shape := ⟨2, ![1, 512]⟩
abbrev S64x512 : Shape := ⟨2, ![64, 512]⟩
abbrev S512x64 : Shape := ⟨2, ![512, 64]⟩
abbrev S1x64 : Shape := ⟨2, ![1, 64]⟩
abbrev S1024x512 : Shape := ⟨2, ![1024, 512]⟩
abbrev S1024x1 : Shape := ⟨2, ![1024, 1]⟩
abbrev S1024x64 : Shape := ⟨2, ![1024, 64]⟩

abbrev nBuf : Space → Nat
  | .hbm => 26
  | .vmem => 17
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S131072, .f32⟩
  | .hbm, ⟨3, _⟩ => ⟨S1024, .f32⟩
  | .hbm, ⟨4, _⟩ => ⟨S1024, .f32⟩
  | .hbm, ⟨5, _⟩ => ⟨S64x1024, .f32⟩
  | .hbm, ⟨6, _⟩ => ⟨S64, .f32⟩
  | .hbm, ⟨7, _⟩ => ⟨S131072x1, .f32⟩
  | .hbm, ⟨8, _⟩ => ⟨S512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S64x512, .f32⟩
  | .hbm, ⟨17, _⟩ => ⟨S512x64, .f32⟩
  | .hbm, ⟨18, _⟩ => ⟨S512x64, .bf16⟩
  | .hbm, ⟨19, _⟩ => ⟨S64x512, .f32⟩
  | .hbm, ⟨20, _⟩ => ⟨S512x64, .f32⟩
  | .hbm, ⟨21, _⟩ => ⟨S512x64, .bf16⟩
  | .hbm, ⟨22, _⟩ => ⟨S1x64, .f32⟩
  | .hbm, ⟨23, _⟩ => ⟨S131072x512, .f32⟩
  | .hbm, ⟨24, _⟩ => ⟨S131072x1, .f32⟩
  | .hbm, ⟨25, _⟩ => ⟨S131072, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x64, .bf16⟩
  | .local _ .vmem, ⟨11, _⟩ => ⟨S512x64, .bf16⟩
  | .local _ .vmem, ⟨12, _⟩ => ⟨S1x64, .f32⟩
  | .local _ .vmem, ⟨13, _⟩ => ⟨S1024x512, .f32⟩
  | .local _ .vmem, ⟨14, _⟩ => ⟨S1024x512, .f32⟩
  | .local _ .vmem, ⟨15, _⟩ => ⟨S1024x1, .f32⟩
  | .local _ .vmem, ⟨16, _⟩ => ⟨S1024x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S131072_S131072x1 : S131072.ShapeCasts S131072x1
  slices_S1024_S512_0 : S1024.Slices ![0] S512
  shapeCasts_S512_S1x512 : S512.ShapeCasts S1x512
  slices_S1024_S512_512 : S1024.Slices ![512] S512
  slices_S64x1024_S64x512_0_0 : S64x1024.Slices ![0, 0] S64x512
  transposes_S64x512_S512x64_1_0 : S64x512.Transposes [1, 0] S512x64
  bitsLt_bf16_f32 : FTy.bits .bf16 < FTy.bits .f32
  slices_S64x1024_S64x512_0_512 : S64x1024.Slices ![0, 512] S64x512
  shapeCasts_S64_S1x64 : S64.ShapeCasts S1x64
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S131072x1_S131072 : S131072x1.ShapeCasts S131072
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S131072x512.size a
  hwx0_1 : ∀ i : grid0.Coords, EltTy.bits .f32 = 32 ∨ (Rect.block (s := S131072x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S131072x1.size a
  hwx0_2 : ∀ i : grid0.Coords, EltTy.bits .f32 = 32 ∨ (Rect.block (s := S131072x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S512x64.size a
  hwx0_7 : ∀ i : grid0.Coords, EltTy.bits .bf16 = 32 ∨ (Rect.block (s := S512x64) S512x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x64.size a ≤ S512x64.size a
  hwx0_8 : ∀ i : grid0.Coords, EltTy.bits .bf16 = 32 ∨ (Rect.block (s := S512x64) S512x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S131072x512.size a
  hwx0_10 : ∀ i : grid0.Coords, EltTy.bits .f32 = 32 ∨ (Rect.block (s := S131072x512) S1024x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S131072x1.size a
  hwx0_11 : ∀ i : grid0.Coords, EltTy.bits .f32 = 32 ∨ (Rect.block (s := S131072x1) S1024x1.size (cc0_transform_11 i) (hinb0_11 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S512x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16_0) S1024x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v16_1) S1024x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072 : Shape := ⟨1, ![131072]⟩
abbrev S1024 : Shape := ⟨1, ![1024]⟩
abbrev S64x1024 : Shape := ⟨2, ![64, 1024]⟩
abbrev S64 : Shape := ⟨1, ![64]⟩
abbrev S131072x1024 : Shape := ⟨2, ![131072, 1024]⟩
abbrev S_ : Shape := ⟨0, ![]⟩
abbrev S131072x1 : Shape := ⟨2, ![131072, 1]⟩
abbrev S1x1024 : Shape := ⟨2, ![1, 1024]⟩
abbrev S1024x64 : Shape := ⟨2, ![1024, 64]⟩
abbrev S131072x64 : Shape := ⟨2, ![131072, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S131072, .f32⟩
  | .hbm, ⟨3, _⟩ => ⟨S1024, .f32⟩
  | .hbm, ⟨4, _⟩ => ⟨S1024, .f32⟩
  | .hbm, ⟨5, _⟩ => ⟨S64x1024, .f32⟩
  | .hbm, ⟨6, _⟩ => ⟨S64, .f32⟩
  | .hbm, ⟨7, _⟩ => ⟨S131072x1024, .f32⟩
  | .hbm, ⟨8, _⟩ => ⟨S_, .f32⟩
  | .hbm, ⟨9, _⟩ => ⟨S131072, .f32⟩
  | .hbm, ⟨10, _⟩ => ⟨S131072x1, .f32⟩
  | .hbm, ⟨11, _⟩ => ⟨S_, .f32⟩
  | .hbm, ⟨12, _⟩ => ⟨S131072x1, .f32⟩
  | .hbm, ⟨13, _⟩ => ⟨S131072x1, .f32⟩
  | .hbm, ⟨14, _⟩ => ⟨S131072x1024, .f32⟩
  | .hbm, ⟨15, _⟩ => ⟨S131072x1024, .f32⟩
  | .hbm, ⟨16, _⟩ => ⟨S131072x1024, .f32⟩
  | .hbm, ⟨17, _⟩ => ⟨S_, .f32⟩
  | .hbm, ⟨18, _⟩ => ⟨S131072, .f32⟩
  | .hbm, ⟨19, _⟩ => ⟨S131072x1, .f32⟩
  | .hbm, ⟨20, _⟩ => ⟨S_, .f32⟩
  | .hbm, ⟨21, _⟩ => ⟨S131072x1, .f32⟩
  | .hbm, ⟨22, _⟩ => ⟨S131072x1, .f32⟩
  | .hbm, ⟨23, _⟩ => ⟨S131072x1024, .f32⟩
  | .hbm, ⟨24, _⟩ => ⟨S131072x1024, .f32⟩
  | .hbm, ⟨25, _⟩ => ⟨S_, .f32⟩
  | .hbm, ⟨26, _⟩ => ⟨S131072x1, .f32⟩
  | .hbm, ⟨27, _⟩ => ⟨S131072x1, .f32⟩
  | .hbm, ⟨28, _⟩ => ⟨S131072x1, .f32⟩
  | .hbm, ⟨29, _⟩ => ⟨S131072x1024, .f32⟩
  | .hbm, ⟨30, _⟩ => ⟨S131072x1024, .f32⟩
  | .hbm, ⟨31, _⟩ => ⟨S1x1024, .f32⟩
  | .hbm, ⟨32, _⟩ => ⟨S131072x1024, .f32⟩
  | .hbm, ⟨33, _⟩ => ⟨S131072x1024, .f32⟩
  | .hbm, ⟨34, _⟩ => ⟨S1x1024, .f32⟩
  | .hbm, ⟨35, _⟩ => ⟨S131072x1024, .f32⟩
  | .hbm, ⟨36, _⟩ => ⟨S131072x1024, .f32⟩
  | .hbm, ⟨37, _⟩ => ⟨S_, .f32⟩
  | .hbm, ⟨38, _⟩ => ⟨S131072x1024, .f32⟩
  | .hbm, ⟨39, _⟩ => ⟨S131072x1024, .f32⟩
  | .hbm, ⟨40, _⟩ => ⟨S1024x64, .f32⟩
  | .hbm, ⟨41, _⟩ => ⟨S131072x64, .f32⟩
  | .hbm, ⟨42, _⟩ => ⟨S1x64, .f32⟩
  | .hbm, ⟨43, _⟩ => ⟨S131072x64, .f32⟩
  | .hbm, ⟨44, _⟩ => ⟨S131072x64, .f32⟩
  | .hbm, ⟨45, _⟩ => ⟨S131072x64, .f32⟩
  | .hbm, ⟨46, _⟩ => ⟨S131072x64, .f32⟩
  | .hbm, ⟨47, _⟩ => ⟨S_, .f32⟩
  | .hbm, ⟨48, _⟩ => ⟨S131072x64, .f32⟩
  | .hbm, ⟨49, _⟩ => ⟨S131072x64, .f32⟩
  | .hbm, ⟨50, _⟩ => ⟨S_, .f32⟩
  | .hbm, ⟨51, _⟩ => ⟨S131072x64, .f32⟩
  | .hbm, ⟨52, _⟩ => ⟨S131072x64, .f32⟩
  | .hbm, ⟨53, _⟩ => ⟨S_, .f32⟩
  | .hbm, ⟨54, _⟩ => ⟨S131072, .f32⟩
  | .hbm, ⟨55, _⟩ => ⟨S_, .f32⟩
  | .hbm, ⟨56, _⟩ => ⟨S131072, .f32⟩
  | .hbm, ⟨57, _⟩ => ⟨S131072, .f32⟩
  | .hbm, ⟨58, _⟩ => ⟨S131072x1, .f32⟩
  | .hbm, ⟨59, _⟩ => ⟨S131072x512, .f32⟩
  | .hbm, ⟨60, _⟩ => ⟨S131072x512, .f32⟩
  | .hbm, ⟨61, _⟩ => ⟨S131072x1, .f32⟩
  | .hbm, ⟨62, _⟩ => ⟨S131072x512, .f32⟩
  | .hbm, ⟨63, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  concatenates_S131072x512_S131072x512_S131072x1024_d1 : Shape.Concatenates [S131072x512, S131072x512] S131072x1024 1
  reducesTo_S131072x1024_S131072_d1 : S131072x1024.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x1024_0_1 : S131072x1.BroadcastsInDim S131072x1024 (![0, 1] : Fin 2 → Fin S131072x1024.rank)
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  transposes_S64x1024_S1024x64_1_0 : S64x1024.Transposes [1, 0] S1024x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  reducesTo_S131072x64_S131072_d1 : S131072x64.ReducesTo [1] S131072
  bcast_S_S131072 : S_.BroadcastsInDim S131072 (![] : Fin 0 → Fin S131072.rank)
  bcast_S131072x1_S131072x512_0_1 : S131072x1.BroadcastsInDim S131072x512 (![0, 1] : Fin 2 → Fin S131072x512.rank)
  dot_S131072x1024_S1024x64_S131072x64_1_0_0_1_n_n_wf : DotDims.WF S131072x1024 S1024x64 S131072x64 [1] [0] [0] [1] [] []

variable [Facts₀]

def dot_S131072x1024_S1024x64_S131072x64_1_0_0_1_n_n : DotDims S131072x1024 S1024x64 S131072x64 where
  lhsContracting := [1]
  rhsContracting := [0]
  lhsNonContracting := [0]
  rhsNonContracting := [1]
  lhsBatch := []
  rhsBatch := []
  wf := dot_S131072x1024_S1024x64_S131072x64_1_0_0_1_n_n_wf

class Facts : Prop extends Facts₀ where

variable [Facts]
-- ==== Proof.Consts.lean ====
/-
  The float constants of the two programs, as the extended reals their bit patterns denote.

  `0x00000000` is `0`, `0x3F800000` is `1`, `0x44800000` is `1024` and `0x3A800000` is `2⁻¹⁰ = 1/1024` exactly (a power of
  two: sign 0, biased exponent 117, zero significand). One side of the comparison divides a row sum by `1024`, the other
  multiplies it by `2⁻¹⁰`; on the extended reals the quotient by a nonzero real IS the product with its reciprocal, at the
  infinities too, so the two agree for every value of the sum (`div_1024`).
-/
import Idealize.ShloMosaic.PureOps.Ideal

noncomputable section

namespace Cert.Consts

open Idealize.ShloMosaic

/-- The pattern `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `1024.0` denotes the real `1024`. -/
theorem ofBits_1024 : Ideal.ofBits .f32 0x44800000#32 = ((1024 : ℝ) : EReal) := by
  simp [Ideal.ofBits, Ideal.ieee, -EReal.coe_mul]; norm_num

/-- The pattern of `9.765625e-4` denotes `1/1024` exactly: it is the power of two `2⁻¹⁰`. -/
theorem ofBits_inv1024 : Ideal.ofBits .f32 0x3A800000#32 = ((1 / 1024 : ℝ) : EReal) := by
  simp [Ideal.ofBits, Ideal.ieee, -EReal.coe_mul]; norm_num

/-- Dividing by the pattern of `1024.0` is multiplying by the pattern of `2⁻¹⁰`, for every extended real `s`. -/
theorem div_1024 (s : EReal) :
    Ideal.div s (Ideal.ofBits .f32 0x44800000#32) = s * Ideal.ofBits .f32 0x3A800000#32 := by
  rw [ofBits_1024, ofBits_inv1024]
  exact Ideal.div_coe (by norm_num) s

end Cert.Consts

end
-- ==== Proof.RowSpec.lean ====
/-
  One row of the computation, as mathematics on the extended reals.

  A row consists of `u` and `p` (512 entries each). Writing `x = [u | p]` for the row of 1024 entries, the result is
    μ    = (Σ x) / 1024,                 σ² = (Σ (x - μ)²) / 1024,        r = (σ² + ε)^(-1/2),
    h_k  = max ((x_k - μ) · r · w_k + b_k, 0)                             (k < 1024),
    l_f  = Σ_k h_k · W_{k f} + β_f                                         (f < 64),
    gate = (Σ_f 1 / (1 + exp (-l_f))) / 64,      out_k = p_k · gate · a    (k < 512).

  It is written twice. `gate` keeps the two halves apart: every sum over the 1024 entries is a sum over the 512 entries of
  `u` plus a sum over the 512 entries of `p`, the mean is a product with `2⁻¹⁰`, and the sigmoid is one function.
  `gateFull` is over the whole row: sums over 1024 entries starting from a zero, quotients by `1024`, and the sigmoid spelt
  `1 / (1 + exp (-l))`. `gateFull_eq` says they are one value: a sum over `Fin 1024` is the sum over its lower half plus the
  sum over its upper half (`sum_halves`; addition of extended reals is commutative and associative, so nothing has to be
  finite), a quotient by `1024` is a product with `2⁻¹⁰`, and `1 / (1 + exp (-l))` is the sigmoid's definition.
-/
import Mathlib.Algebra.BigOperators.Fin
import Idealize.ShloMosaic.PureOps.Ideal
import proofs.«148923_j56977036149411_2_alg».proof.Proof.Consts

open scoped BigOperators

noncomputable section

namespace Cert.RowSpec

open Idealize.ShloMosaic

/-- The patterns the programs spell, kept as patterns: the same pattern on both sides is never evaluated. -/
abbrev wZero : EReal := Ideal.ofBits .f32 0x00000000#32
abbrev wOne : EReal := Ideal.ofBits .f32 0x3F800000#32
abbrev wEps : EReal := Ideal.ofBits .f32 0x3727C5AC#32
abbrev wInv1024 : EReal := Ideal.ofBits .f32 0x3A800000#32
abbrev w1024 : EReal := Ideal.ofBits .f32 0x44800000#32
abbrev w64 : EReal := Ideal.ofBits .f32 0x42800000#32

/-- Entry `k` of the lower half of a row of 1024, and of its upper half. -/
def lo (k : Fin 512) : Fin 1024 := ⟨k.val, by omega⟩
def hi (k : Fin 512) : Fin 1024 := ⟨512 + k.val, by omega⟩

@[simp] theorem lo_val (k : Fin 512) : (lo k).val = k.val := rfl
@[simp] theorem hi_val (k : Fin 512) : (hi k).val = 512 + k.val := rfl

/-- A sum over the 1024 entries of a row is the sum over its lower 512 plus the sum over its upper 512. -/
theorem sum_halves {M : Type} [AddCommMonoid M] (f : Fin 1024 → M) :
    ∑ k : Fin 1024, f k = ∑ k : Fin 512, f (lo k) + ∑ k : Fin 512, f (hi k) :=
  Fin.sum_univ_add (a := 512) (b := 512) f

section Split

variable (u p wu wp bu bp : Fin 512 → EReal) (Wu Wp : Fin 512 → Fin 64 → EReal) (β : Fin 64 → EReal)

/-- The mean of the row, from the two halves' sums. -/
def mean : EReal := (∑ k, u k + ∑ k, p k) * wInv1024

/-- The reciprocal standard deviation of the row, the variance from the two halves' sums of squares. -/
def inv : EReal :=
  Ideal.rsqrt ((∑ k, (u k - mean u p) * (u k - mean u p) + ∑ k, (p k - mean u p) * (p k - mean u p)) * wInv1024 + wEps)

/-- The normalised, scaled, shifted and clipped entries of the two halves. -/
def hu (k : Fin 512) : EReal := max ((u k - mean u p) * inv u p * wu k + bu k) wZero
def hp (k : Fin 512) : EReal := max ((p k - mean u p) * inv u p * wp k + bp k) wZero

/-- The 64 linear outputs: the two halves' products summed apart, then added, then the bias. -/
def logit (f : Fin 64) : EReal :=
  (∑ k, hu u p wu bu k * Wu k f + ∑ k, hp u p wp bp k * Wp k f) + β f

/-- The row's gate: the mean over the 64 outputs of their sigmoids. -/
def gate : EReal := Ideal.div (∑ f, Ideal.logistic (logit u p wu wp bu bp Wu Wp β f)) w64

end Split

section Full

variable (x w b : Fin 1024 → EReal) (W : Fin 1024 → Fin 64 → EReal) (β : Fin 64 → EReal)

def meanFull : EReal := Ideal.div (wZero + ∑ k, x k) w1024

def invFull : EReal :=
  Ideal.rsqrt (Ideal.div (wZero + ∑ k, (x k - meanFull x) * (x k - meanFull x)) w1024 + wEps)

def hFull (k : Fin 1024) : EReal := max ((x k - meanFull x) * invFull x * w k + b k) wZero

def logitFull (f : Fin 64) : EReal := ∑ k, hFull x w b k * W k f + β f

def gateFull : EReal :=
  Ideal.div (wZero + ∑ f, Ideal.div wOne (wOne + Ideal.exp (-(logitFull x w b W β f)))) w64

theorem meanFull_eq : meanFull x = mean (fun k => x (lo k)) (fun k => x (hi k)) := by
  unfold meanFull mean wZero w1024 wInv1024
  rw [Consts.div_1024, Consts.ofBits_zero, zero_add, sum_halves]

theorem invFull_eq : invFull x = inv (fun k => x (lo k)) (fun k => x (hi k)) := by
  unfold invFull inv wZero w1024 wInv1024
  rw [Consts.div_1024, Consts.ofBits_zero, zero_add, sum_halves, meanFull_eq]

theorem hFull_lo (k : Fin 512) :
    hFull x w b (lo k) = hu (fun k => x (lo k)) (fun k => x (hi k)) (fun k => w (lo k)) (fun k => b (lo k)) k := by
  unfold hFull hu
  rw [meanFull_eq, invFull_eq]

theorem hFull_hi (k : Fin 512) :
    hFull x w b (hi k) = hp (fun k => x (lo k)) (fun k => x (hi k)) (fun k => w (hi k)) (fun k => b (hi k)) k := by
  unfold hFull hp
  rw [meanFull_eq, invFull_eq]

theorem logitFull_eq (f : Fin 64) :
    logitFull x w b W β f
      = logit (fun k => x (lo k)) (fun k => x (hi k)) (fun k => w (lo k)) (fun k => w (hi k)) (fun k => b (lo k))
          (fun k => b (hi k)) (fun k f => W (lo k) f) (fun k f => W (hi k) f) β f := by
  unfold logitFull logit
  rw [sum_halves]
  simp only [hFull_lo, hFull_hi]

/-- The full-row spelling and the split spelling are one value. -/
theorem gateFull_eq :
    gateFull x w b W β
      = gate (fun k => x (lo k)) (fun k => x (hi k)) (fun k => w (lo k)) (fun k => w (hi k)) (fun k => b (lo k))
          (fun k => b (hi k)) (fun k f => W (lo k) f) (fun k f => W (hi k) f) β := by
  unfold gateFull gate wZero wOne
  rw [Consts.ofBits_zero, zero_add]
  simp only [logitFull_eq, Consts.ofBits_one, Ideal.logistic]

end Full

end Cert.RowSpec

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.KernelPay.lean ====
/-
  The kernel body's arithmetic, read at an index of a block.

  At a grid point the body holds a block of 1024 rows: `x0`, `x1` (the rows' two halves, 512 entries each), `x2` (one
  scalar per row), and the parameters `x3 … x9`, the same at every point. Row `r` of what the body stores depends on row
  `r` of `x0`, `x1`, `x2` only: the row sums run along the 512 columns, a column of per-row values is broadcast back
  along the row, a one-row parameter is broadcast down the rows, and each of the two block products contracts the row with
  a 512 × 64 matrix. So each stored value at `(r, ·)` is the row computation of `RowSpec` applied to row `r` of the blocks.
-/
import proofs.«148923_j56977036149411_2_alg».proof.Proof.Gen.KernelIdeal.Skeleton
import proofs.«148923_j56977036149411_2_alg».proof.Proof.RowSpec
import proofs.«148923_j56977036149411_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Pay

open Idealize.ShloMosaic Idealize.ShloMosaic.ValueIdx Cert.KernelIdeal Cert.KernelIdeal.Gen

/-- The sum of a block along its 512 columns, kept as a column: at `(r, 0)` it is the sum of row `r`. -/
theorem rowSum_col (x : FVec Ideal S1024x512 .f32) (r : Fin 1024) (z : Fin 1) :
    shapeCast S1024x1 (multiReduction .add [1] S1024 x 0x00000000#32 reduces_S1024x512_S1024 (.inl rfl) rfl)
        shapeCasts_S1024_S1024x1 (ix2 r z)
      = ∑ k : Fin 512, x (ix2 r k) :=
  (LibKeepdims.shapeCast_a_a1_apply _ _ r z).trans (LibKeepdims.multiReduction_add_rows x _ _ _ _ r)

variable (x0 x1 : Vec Ideal S1024x512 .f32)

/-- Row `r` of the two halves. -/
abbrev rowU (r : Fin 1024) : Fin 512 → EReal := fun k => x0 (ix2 r k)
abbrev rowP (r : Fin 1024) : Fin 512 → EReal := fun k => x1 (ix2 r k)

/-- The column of row means. -/
theorem pay3_apply (r : Fin 1024) (z : Fin 1) :
    k0_pay3 (F := Ideal) x0 x1 (ix2 r z) = RowSpec.mean (rowU x0 r) (rowP x1 r) := by
  unfold k0_pay3 RowSpec.mean
  show (shapeCast S1024x1 (multiReduction .add [1] S1024 x0 0x00000000#32 reduces_S1024x512_S1024 (.inl rfl) rfl)
          shapeCasts_S1024_S1024x1 (ix2 r z)
        + shapeCast S1024x1 (multiReduction .add [1] S1024 x1 0x00000000#32 reduces_S1024x512_S1024 (.inl rfl) rfl)
          shapeCasts_S1024_S1024x1 (ix2 r z)) * Ideal.ofBits .f32 0x3A800000#32 = _
  rw [rowSum_col, rowSum_col]

/-- The centred entries of the first half. -/
theorem pay4_apply (r : Fin 1024) (k : Fin 512) :
    k0_pay4 (F := Ideal) x0 x1 (ix2 r k) = x0 (ix2 r k) - RowSpec.mean (rowU x0 r) (rowP x1 r) := by
  unfold k0_pay4
  show x0 (ix2 r k) - broadcastTo S1024x512 (k0_pay3 (F := Ideal) x0 x1) broadcasts_S1024x1_S1024x512 (ix2 r k) = _
  rw [LibKeepdims.broadcastTo_a1_ab_apply, pay3_apply]

/-- The centred entries of the second half. -/
theorem pay5_apply (r : Fin 1024) (k : Fin 512) :
    k0_pay5 (F := Ideal) x0 x1 (ix2 r k) = x1 (ix2 r k) - RowSpec.mean (rowU x0 r) (rowP x1 r) := by
  unfold k0_pay5
  show x1 (ix2 r k) - broadcastTo S1024x512 (k0_pay3 (F := Ideal) x0 x1) broadcasts_S1024x1_S1024x512 (ix2 r k) = _
  rw [LibKeepdims.broadcastTo_a1_ab_apply, pay3_apply]

/-- The column of reciprocal standard deviations. -/
theorem pay6_apply (r : Fin 1024) (z : Fin 1) :
    k0_pay6 (F := Ideal) x0 x1 (ix2 r z) = RowSpec.inv (rowU x0 r) (rowP x1 r) := by
  unfold k0_pay6 RowSpec.inv
  show Ideal.rsqrt
      ((shapeCast S1024x1 (multiReduction .add [1] S1024 (mulf (k0_pay4 (F := Ideal) x0 x1) (k0_pay4 (F := Ideal) x0 x1))
            0x00000000#32 reduces_S1024x512_S1024 (.inl rfl) rfl) shapeCasts_S1024_S1024x1 (ix2 r z)
        + shapeCast S1024x1 (multiReduction .add [1] S1024 (mulf (k0_pay5 (F := Ideal) x0 x1) (k0_pay5 (F := Ideal) x0 x1))
            0x00000000#32 reduces_S1024x512_S1024 (.inl rfl) rfl) shapeCasts_S1024_S1024x1 (ix2 r z))
          * Ideal.ofBits .f32 0x3A800000#32 + Ideal.ofBits .f32 0x3727C5AC#32) = _
  rw [rowSum_col, rowSum_col]
  simp only [mulf_apply, pay4_apply, pay5_apply]

variable (x3 x4 x5 x6 : Vec Ideal S1x512 .f32)

/-- The first half normalised, scaled and shifted (before clipping). -/
theorem pay7_apply (r : Fin 1024) (k : Fin 512) :
    k0_pay7 (F := Ideal) x0 x1 x3 x5 (ix2 r k)
      = (x0 (ix2 r k) - RowSpec.mean (rowU x0 r) (rowP x1 r)) * RowSpec.inv (rowU x0 r) (rowP x1 r) * x3 (ix2 (0 : Fin 1) k)
          + x5 (ix2 (0 : Fin 1) k) := by
  unfold k0_pay7
  show k0_pay4 (F := Ideal) x0 x1 (ix2 r k)
        * broadcastTo S1024x512 (k0_pay6 (F := Ideal) x0 x1) broadcasts_S1024x1_S1024x512 (ix2 r k)
        * broadcastTo S1024x512 (shapeCast S1x512 x3 shapeCasts_S1x512_S1x512) broadcasts_S1x512_S1024x512 (ix2 r k)
      + broadcastTo S1024x512 (shapeCast S1x512 x5 shapeCasts_S1x512_S1x512) broadcasts_S1x512_S1024x512 (ix2 r k) = _
  rw [LibKeepdims.broadcastTo_a1_ab_apply, broadcastTo_1b_ab_apply, broadcastTo_1b_ab_apply, shapeCast_self, shapeCast_self,
    pay4_apply, pay6_apply]

/-- The second half normalised and scaled (before its shift and clipping). -/
theorem pay8_apply (r : Fin 1024) (k : Fin 512) :
    k0_pay8 (F := Ideal) x0 x1 x4 (ix2 r k)
      = (x1 (ix2 r k) - RowSpec.mean (rowU x0 r) (rowP x1 r)) * RowSpec.inv (rowU x0 r) (rowP x1 r) * x4 (ix2 (0 : Fin 1) k) := by
  unfold k0_pay8
  show k0_pay5 (F := Ideal) x0 x1 (ix2 r k)
        * broadcastTo S1024x512 (k0_pay6 (F := Ideal) x0 x1) broadcasts_S1024x1_S1024x512 (ix2 r k)
        * broadcastTo S1024x512 (shapeCast S1x512 x4 shapeCasts_S1x512_S1x512) broadcasts_S1x512_S1024x512 (ix2 r k) = _
  rw [LibKeepdims.broadcastTo_a1_ab_apply, broadcastTo_1b_ab_apply, shapeCast_self, pay5_apply, pay6_apply]

/-- The dimension numbers of the body's two block products: rows × 512 times 512 × 64, the 512 contracted. -/
abbrev D := dot_S1024x512_S512x64_S1024x64_1_0_0_1_n_n

/-- The left operand's index at output index `j`: its row coordinate is `j`'s row (axis 0 is not contracted). -/
theorem lhs_row (j : S1024x64.Idx) (q : D.contr.Idx) : (D.lhsIdx j q 0).val = (j 0).val := by
  unfold DotDims.lhsIdx
  rw [dif_neg (show ¬(0 : Fin S1024x512.rank) ∈ D.lhsBatch by decide),
    dif_pos (show (0 : Fin S1024x512.rank) ∈ D.lhsNonContracting by decide)]
  rfl

/-- The right operand's index at output index `j`: its column coordinate is `j`'s column (axis 1 is not contracted). -/
theorem rhs_col (j : S1024x64.Idx) (q : D.contr.Idx) : (D.rhsIdx j q 1).val = (j 1).val := by
  unfold DotDims.rhsIdx
  rw [dif_neg (show ¬(1 : Fin S512x64.rank) ∈ D.rhsBatch by decide),
    dif_pos (show (1 : Fin S512x64.rank) ∈ D.rhsNonContracting by decide)]
  rfl

/-- A block product into a zero accumulator, at `(r, f)`: the sum over the 512 contracted entries of row `r` of the left
    operand times column `f` of the right one. -/
theorem matmul_block (l : FVec Ideal S1024x512 .bf16) (w : FVec Ideal S512x64 .bf16) (r : Fin 1024) (f : Fin 64) :
    matmul D none l w (constant S1024x64 .f32 0x00000000#32) (ix2 r f) = ∑ k : Fin 512, l (ix2 r k) * w (ix2 k f) := by
  show FloatOps.matmul D none l w (constant S1024x64 .f32 0x00000000#32) (ix2 r f) = _
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 r f) ((contrEquiv1 D 512 rfl rfl).symm k) = ix2 r k := funext fun a => Fin.ext (by
    match a with
    | ⟨0, _⟩ => exact lhs_row _ _
    | ⟨1, _⟩ => exact (D.lhsIdx_val_of_single rfl _ _).trans hk)
  have er : D.rhsIdx (ix2 r f) ((contrEquiv1 D 512 rfl rfl).symm k) = ix2 k f := funext fun a => Fin.ext (by
    match a with
    | ⟨0, _⟩ => exact (D.rhsIdx_val_of_single rfl _ _).trans hk
    | ⟨1, _⟩ => exact rhs_col _ _)
  rw [el, er]

/-- The sum of a 1024 × 64 block along its 64 columns, kept as a column: at `(r, 0)` it is the sum of row `r`. -/
theorem rowSum_col64 (x : FVec Ideal S1024x64 .f32) (r : Fin 1024) (z : Fin 1) :
    shapeCast S1024x1 (multiReduction .add [1] S1024 x 0x00000000#32 reduces_S1024x64_S1024 (.inl rfl) rfl)
        shapeCasts_S1024_S1024x1 (ix2 r z)
      = ∑ f : Fin 64, x (ix2 r f) :=
  (LibKeepdims.shapeCast_a_a1_apply _ _ r z).trans (LibKeepdims.multiReduction_add_rows x _ _ _ _ r)

variable (x7 x8 : FVec Ideal S512x64 .bf16) (x9 : Vec Ideal S1x64 .f32)

/-- The block of linear outputs the body forms from the two scaled halves `v34` (already shifted) and `v40` (its shift
    `x6` still to add): clip both at zero, multiply each with its 512 × 64 matrix, add the two products and the bias row. -/
abbrev kLogits (v34 v40 : FVec Ideal S1024x512 .f32) : FVec Ideal S1024x64 .f32 :=
  addf
    (addf
      (matmul D none (truncf .bf16 (maximumf v34 (broadcast S1024x512 (Scalar.ofBits .f32 0x00000000#32))) bitsLt_bf16_f32)
        (shapeCast S512x64 x7 shapeCasts_S512x64_S512x64) (constant S1024x64 .f32 0x00000000#32))
      (matmul D none
        (truncf .bf16
          (maximumf (addf v40 (broadcastTo S1024x512 (shapeCast S1x512 x6 shapeCasts_S1x512_S1x512) broadcasts_S1x512_S1024x512))
            (broadcast S1024x512 (Scalar.ofBits .f32 0x00000000#32))) bitsLt_bf16_f32)
        (shapeCast S512x64 x8 shapeCasts_S512x64_S512x64) (constant S1024x64 .f32 0x00000000#32)))
    (broadcastTo S1024x64 (shapeCast S1x64 x9 shapeCasts_S1x64_S1x64) broadcasts_S1x64_S1024x64)

theorem kLogits_apply (v34 v40 : FVec Ideal S1024x512 .f32) (r : Fin 1024) (f : Fin 64) :
    kLogits x6 x7 x8 x9 v34 v40 (ix2 r f)
      = (∑ k : Fin 512, max (v34 (ix2 r k)) RowSpec.wZero * x7 (ix2 k f)
          + ∑ k : Fin 512, max (v40 (ix2 r k) + x6 (ix2 (0 : Fin 1) k)) RowSpec.wZero * x8 (ix2 k f))
        + x9 (ix2 (0 : Fin 1) f) := by
  unfold kLogits
  rw [addf_apply, addf_apply, matmul_block, matmul_block, broadcastTo_1b_ab_apply, shapeCast_self, shapeCast_self,
    shapeCast_self]
  simp only [truncf_apply, maximumf_apply, broadcast_apply, addf_apply, broadcastTo_1b_ab_apply, shapeCast_self]
  rfl

/-- The gate column from the two scaled halves: the mean over the 64 outputs of their sigmoids. -/
theorem pay1_gen (v34 v40 : FVec Ideal S1024x512 .f32) (r : Fin 1024) (z : Fin 1) :
    k0_pay1 (F := Ideal) v34 v40 x6 x7 x8 x9 (ix2 r z)
      = Ideal.div (∑ f : Fin 64, Ideal.logistic (kLogits x6 x7 x8 x9 v34 v40 (ix2 r f))) RowSpec.w64 := by
  unfold k0_pay1
  show Ideal.div
      (shapeCast S1024x1 (multiReduction .add [1] S1024 (logistic (kLogits x6 x7 x8 x9 v34 v40)) 0x00000000#32
        reduces_S1024x64_S1024 (.inl rfl) rfl) shapeCasts_S1024_S1024x1 (ix2 r z))
      (Ideal.ofBits .f32 0x42800000#32) = _
  rw [rowSum_col64]
  rfl

/-- The column of gates is the row computation on row `r` of the blocks. -/
theorem pay1_apply (r : Fin 1024) (z : Fin 1) :
    k0_pay1 (F := Ideal) (k0_pay7 (F := Ideal) x0 x1 x3 x5) (k0_pay8 (F := Ideal) x0 x1 x4) x6 x7 x8 x9 (ix2 r z)
      = RowSpec.gate (rowU x0 r) (rowP x1 r) (fun k => x3 (ix2 (0 : Fin 1) k)) (fun k => x4 (ix2 (0 : Fin 1) k))
          (fun k => x5 (ix2 (0 : Fin 1) k)) (fun k => x6 (ix2 (0 : Fin 1) k)) (fun k f => x7 (ix2 k f))
          (fun k f => x8 (ix2 k f)) (fun f => x9 (ix2 (0 : Fin 1) f)) := by
  rw [pay1_gen]
  unfold RowSpec.gate RowSpec.logit RowSpec.hu RowSpec.hp
  simp only [kLogits_apply, pay7_apply, pay8_apply]

variable (x2 : Vec Ideal S1024x1 .f32)

/-- The stored block of the first result: row `r` of `x1` times the row's gate times the row's scalar. -/
theorem pay2_apply (r : Fin 1024) (k : Fin 512) :
    k0_pay2 (F := Ideal) x1 (k0_pay7 (F := Ideal) x0 x1 x3 x5) (k0_pay8 (F := Ideal) x0 x1 x4) x6 x7 x8 x9 x2 (ix2 r k)
      = x1 (ix2 r k)
          * RowSpec.gate (rowU x0 r) (rowP x1 r) (fun k => x3 (ix2 (0 : Fin 1) k)) (fun k => x4 (ix2 (0 : Fin 1) k))
              (fun k => x5 (ix2 (0 : Fin 1) k)) (fun k => x6 (ix2 (0 : Fin 1) k)) (fun k f => x7 (ix2 k f))
              (fun k f => x8 (ix2 k f)) (fun f => x9 (ix2 (0 : Fin 1) f))
          * x2 (ix2 r (0 : Fin 1)) := by
  unfold k0_pay2
  show x1 (ix2 r k)
        * broadcastTo S1024x512
            (k0_pay1 (F := Ideal) (k0_pay7 (F := Ideal) x0 x1 x3 x5) (k0_pay8 (F := Ideal) x0 x1 x4) x6 x7 x8 x9)
            broadcasts_S1024x1_S1024x512 (ix2 r k)
        * broadcastTo S1024x512 (shapeCast S1024x1 x2 shapeCasts_S1024x1_S1024x1) broadcasts_S1024x1_S1024x512 (ix2 r k) = _
  rw [LibKeepdims.broadcastTo_a1_ab_apply, LibKeepdims.broadcastTo_a1_ab_apply, shapeCast_self, pay1_apply]

end Cert.KernelIdeal.Pay

end
-- ==== Proof.LibVecLayout.lean ====
/-
  Two layout operations on vectors, read at an index given by its coordinate.

  A unit-stride slice of a vector of `n` entries that starts at offset `o` holds, at `i`, the vector's entry `o + i`. An
  `a × 1` column cast to a vector of `a` entries holds, at `i`, the column's entry `(i, 0)`: both sit at row-major
  position `i`. Indices are written with the literal-size constructors `ix1`, `ix2`, so that each lemma applies to a
  printed operation by unification.
-/
import Idealize.ShloMosaic.Lib.Pipeline.Value
import Idealize.ShloMosaic.Lib.ValueIdx

namespace Cert.LibVecLayout

open Idealize.ShloMosaic Idealize.ShloMosaic.ValueIdx

variable {α : Type}

/-- A slice `[o : o + m]` of a vector reads, at `j`, the vector's entry `k` with `k = o + j`. -/
theorem slice1_apply {n m : ℕ} (o : ℕ) (X : (⟨1, ![n]⟩ : Shape).Idx → α) (h : (⟨1, ![n]⟩ : Shape).Slices ![o] ⟨1, ![m]⟩)
    (j : Fin m) (k : Fin n) (hk : k.val = o + j.val) : extractStridedSlice ⟨1, ![m]⟩ ![o] X h (ix1 j) = X (ix1 k) :=
  extractStridedSlice_apply _ X h (ix1 j) (ix1 k) fun a => match a with | ⟨0, _⟩ => hk

/-- A column cast to a vector, `[a, 1] → [a]`, reads at `i` the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibVecLayout
-- ==== Proof.KernelHost.lean ====
/-
  What the kernel's windows stage: the arrays the host operations before the region build from the arguments, read at an
  index.

  The per-row scalars `A2` are reshaped to a column; the scale `A3` and the shift `A4` are each cut into their lower and
  upper halves of 512 and reshaped to one row; the 64 × 1024 matrix `A5` is cut into its left and right 64 × 512 halves,
  each transposed to 512 × 64 (and converted to a narrower float format, which changes nothing on the extended reals); the
  bias `A6` is reshaped to one row. So entry `(0, k)` of a half-row is entry `k` or `512 + k` of the parameter, and
  entry `(k, f)` of a transposed half is entry `(f, k)` or `(f, 512 + k)` of the matrix.
-/
import proofs.«148923_j56977036149411_2_alg».proof.Proof.Gen.KernelIdeal.Frame
import proofs.«148923_j56977036149411_2_alg».proof.Proof.RowSpec
import proofs.«148923_j56977036149411_2_alg».proof.Proof.LibKeepdims
import proofs.«148923_j56977036149411_2_alg».proof.Proof.LibVecLayout
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostRead

open Cert.KernelIdeal Cert.KernelIdeal.Gen Idealize.ShloMosaic Idealize.ShloMosaic.TcCoe Idealize.SL.Sem
open Idealize.ShloMosaic.ValueIdx Cert.RowSpec

variable (m : (ℓ : Loc nD τ sig) → Buf (Elt Ideal) ℓ) (c : Dev nD)

/-! ## The arrays, as operations of the arguments -/

theorem V_v0 : (V m c main_v0 : S131072x1.Idx → EReal)
    = shapeCast S131072x1 (m ((c : Thread nD τ).loc main_arg2)) shapeCasts_S131072_S131072x1 := by
  show StableHlo.after hostOps0 (fun b => m (c, b)) (Proc.devRef .tc main_v0) = _
  after_results
  rfl

theorem V_v2 : (V m c main_v2 : S1x512.Idx → EReal)
    = shapeCast S1x512 (extractStridedSlice S512 ![0] (m ((c : Thread nD τ).loc main_arg3)) slices_S1024_S512_0)
        shapeCasts_S512_S1x512 := by
  show StableHlo.after hostOps0 (fun b => m (c, b)) (Proc.devRef .tc main_v2) = _
  after_results
  rfl

theorem V_v4 : (V m c main_v4 : S1x512.Idx → EReal)
    = shapeCast S1x512 (extractStridedSlice S512 ![512] (m ((c : Thread nD τ).loc main_arg3)) slices_S1024_S512_512)
        shapeCasts_S512_S1x512 := by
  show StableHlo.after hostOps0 (fun b => m (c, b)) (Proc.devRef .tc main_v4) = _
  after_results
  rfl

theorem V_v6 : (V m c main_v6 : S1x512.Idx → EReal)
    = shapeCast S1x512 (extractStridedSlice S512 ![0] (m ((c : Thread nD τ).loc main_arg4)) slices_S1024_S512_0)
        shapeCasts_S512_S1x512 := by
  show StableHlo.after hostOps0 (fun b => m (c, b)) (Proc.devRef .tc main_v6) = _
  after_results
  rfl

theorem V_v8 : (V m c main_v8 : S1x512.Idx → EReal)
    = shapeCast S1x512 (extractStridedSlice S512 ![512] (m ((c : Thread nD τ).loc main_arg4)) slices_S1024_S512_512)
        shapeCasts_S512_S1x512 := by
  show StableHlo.after hostOps0 (fun b => m (c, b)) (Proc.devRef .tc main_v8) = _
  after_results
  rfl

theorem V_v11 : (V m c main_v11 : S512x64.Idx → EReal)
    = truncf (F := Ideal) .bf16
        (transpose S512x64 [1, 0]
          (extractStridedSlice S64x512 ![0, 0] (m ((c : Thread nD τ).loc main_arg5)) slices_S64x1024_S64x512_0_0)
          transposes_S64x512_S512x64_1_0) bitsLt_bf16_f32 := by
  show StableHlo.after hostOps0 (fun b => m (c, b)) (Proc.devRef .tc main_v11) = _
  after_results

theorem V_v14 : (V m c main_v14 : S512x64.Idx → EReal)
    = truncf (F := Ideal) .bf16
        (transpose S512x64 [1, 0]
          (extractStridedSlice S64x512 ![0, 512] (m ((c : Thread nD τ).loc main_arg5)) slices_S64x1024_S64x512_0_512)
          transposes_S64x512_S512x64_1_0) bitsLt_bf16_f32 := by
  show StableHlo.after hostOps0 (fun b => m (c, b)) (Proc.devRef .tc main_v14) = _
  after_results

theorem V_v15 : (V m c main_v15 : S1x64.Idx → EReal)
    = shapeCast S1x64 (m ((c : Thread nD τ).loc main_arg6)) shapeCasts_S64_S1x64 := by
  show StableHlo.after hostOps0 (fun b => m (c, b)) (Proc.devRef .tc main_v15) = _
  after_results
  rfl

/-! ## The same, at an index -/

theorem V_v0_at (n : Fin 131072) (z : Fin 1) :
    V m c main_v0 (ix2 n z) = m ((c : Thread nD τ).loc main_arg2) (ix1 n) := by
  rw [V_v0]
  exact LibKeepdims.shapeCast_a_a1_apply _ _ n z

theorem V_v2_at (u : Fin 1) (k : Fin 512) :
    V m c main_v2 (ix2 u k) = m ((c : Thread nD τ).loc main_arg3) (ix1 (lo k)) := by
  rw [V_v2]
  exact (shapeCast_a_1a_apply _ _ u k).trans
    (LibVecLayout.slice1_apply 0 _ _ k (lo k) (by show k.val = 0 + k.val; omega))

theorem V_v4_at (u : Fin 1) (k : Fin 512) :
    V m c main_v4 (ix2 u k) = m ((c : Thread nD τ).loc main_arg3) (ix1 (hi k)) := by
  rw [V_v4]
  exact (shapeCast_a_1a_apply _ _ u k).trans (LibVecLayout.slice1_apply 512 _ _ k (hi k) rfl)

theorem V_v6_at (u : Fin 1) (k : Fin 512) :
    V m c main_v6 (ix2 u k) = m ((c : Thread nD τ).loc main_arg4) (ix1 (lo k)) := by
  rw [V_v6]
  exact (shapeCast_a_1a_apply _ _ u k).trans
    (LibVecLayout.slice1_apply 0 _ _ k (lo k) (by show k.val = 0 + k.val; omega))

theorem V_v8_at (u : Fin 1) (k : Fin 512) :
    V m c main_v8 (ix2 u k) = m ((c : Thread nD τ).loc main_arg4) (ix1 (hi k)) := by
  rw [V_v8]
  exact (shapeCast_a_1a_apply _ _ u k).trans (LibVecLayout.slice1_apply 512 _ _ k (hi k) rfl)

theorem V_v11_at (k : Fin 512) (f : Fin 64) :
    V m c main_v11 (ix2 k f) = m ((c : Thread nD τ).loc main_arg5) (ix2 f (lo k)) := by
  rw [V_v11]
  show transpose S512x64 [1, 0]
      (extractStridedSlice S64x512 ![0, 0] (m ((c : Thread nD τ).loc main_arg5)) slices_S64x1024_S64x512_0_0)
      transposes_S64x512_S512x64_1_0 (ix2 k f) = _
  rw [transpose_ix2_apply]
  exact slice2_axis1_apply 0 _ _ f k (lo k) (by show k.val = 0 + k.val; omega)

theorem V_v14_at (k : Fin 512) (f : Fin 64) :
    V m c main_v14 (ix2 k f) = m ((c : Thread nD τ).loc main_arg5) (ix2 f (hi k)) := by
  rw [V_v14]
  show transpose S512x64 [1, 0]
      (extractStridedSlice S64x512 ![0, 512] (m ((c : Thread nD τ).loc main_arg5)) slices_S64x1024_S64x512_0_512)
      transposes_S64x512_S512x64_1_0 (ix2 k f) = _
  rw [transpose_ix2_apply]
  exact slice2_axis1_apply 512 _ _ f k (hi k) rfl

theorem V_v15_at (u : Fin 1) (f : Fin 64) :
    V m c main_v15 (ix2 u f) = m ((c : Thread nD τ).loc main_arg6) (ix1 f) := by
  rw [V_v15]
  exact shapeCast_a_1a_apply _ _ u f

end Cert.KernelIdeal.HostRead

end
-- ==== Proof.Spec.lean ====
/-
  The two results as whole arrays, index by index.

  The arguments are `A0`, `A1` (131072 rows of 512 entries), `A2` (one scalar per row), `A3`, `A4` (1024 scale and shift
  parameters), `A5` (a 64 × 1024 matrix) and `A6` (64 biases). Row `n` of the first result is `A1 (n, ·) · gate n · A2 n`,
  and entry `n` of the second is `gate n`, where `gate n` is the row computation of `RowSpec` on row `n`: the two halves of
  the row are `A0 (n, ·)` and `A1 (n, ·)`; the parameters of the first half are entries `k` of `A3`, `A4` and column `k` of
  `A5`, those of the second half entries `512 + k` and column `512 + k`.
-/
import proofs.«148923_j56977036149411_2_alg».proof.Proof.RowSpec
import Idealize.ShloMosaic.Lib.ValueIdx

noncomputable section

namespace Cert.Spec

open Idealize.ShloMosaic Idealize.ShloMosaic.ValueIdx Cert.RowSpec

variable (A0 A1 : (⟨2, ![131072, 512]⟩ : Shape).Idx → EReal) (A2 : (⟨1, ![131072]⟩ : Shape).Idx → EReal)
  (A3 A4 : (⟨1, ![1024]⟩ : Shape).Idx → EReal) (A5 : (⟨2, ![64, 1024]⟩ : Shape).Idx → EReal)
  (A6 : (⟨1, ![64]⟩ : Shape).Idx → EReal)

/-- The gate of row `n`. -/
def gateRow (n : Fin 131072) : EReal :=
  RowSpec.gate (fun k => A0 (ix2 n k)) (fun k => A1 (ix2 n k)) (fun k => A3 (ix1 (lo k))) (fun k => A3 (ix1 (hi k)))
    (fun k => A4 (ix1 (lo k))) (fun k => A4 (ix1 (hi k))) (fun k f => A5 (ix2 f (lo k))) (fun k f => A5 (ix2 f (hi k)))
    (fun f => A6 (ix1 f))

/-- The second result: the gates, one per row. -/
def gateArr : (⟨1, ![131072]⟩ : Shape).Idx → EReal := fun i => gateRow A0 A1 A3 A4 A5 A6 (i 0)

/-- The first result: each row of `A1` times the row's gate times the row's scalar. -/
def outArr : (⟨2, ![131072, 512]⟩ : Shape).Idx → EReal :=
  fun i => A1 (ix2 (i 0) (i 1)) * gateRow A0 A1 A3 A4 A5 A6 (i 0) * A2 (ix1 (i 0))

theorem gateArr_apply (n : Fin 131072) : gateArr A0 A1 A3 A4 A5 A6 (ix1 n) = gateRow A0 A1 A3 A4 A5 A6 n := rfl

theorem outArr_apply (n : Fin 131072) (k : Fin 512) :
    outArr A0 A1 A2 A3 A4 A5 A6 (ix2 n k) = A1 (ix2 n k) * gateRow A0 A1 A3 A4 A5 A6 n * A2 (ix1 n) := rfl

end Cert.Spec

end
-- ==== Proof.KernelBlocks.lean ====
/-
  From the blocks the grid points write back to the two arrays the region leaves.

  The grid has 128 points; point `t` works on rows `1024 t … 1024 t + 1023`: the blocks of the two row arrays, of the column
  of per-row scalars and of both results sit at block index `(t, 0)`, while every parameter is staged whole (block index
  `(0, 0)` at every point). So row `r` of a block at point `t` is row `1024 t + r` of its array, what point `t` writes back
  is rows `1024 t …` of the specification (the body's arithmetic at an index is `KernelPay`'s), and row `n` of either
  result lies in the block of point `n / 1024`: the blocks cover the arrays, which therefore end holding the
  specification.
-/
import proofs.«148923_j56977036149411_2_alg».proof.Proof.Gen.KernelIdeal.Frame
import proofs.«148923_j56977036149411_2_alg».proof.Proof.KernelPay
import proofs.«148923_j56977036149411_2_alg».proof.Proof.KernelHost
import proofs.«148923_j56977036149411_2_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.RowSpec
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

/-! ## The printed index maps, decided over the 128 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

/-- Row `r` of the block at point `t` is row `1024 t + r` of the array. -/
def rowOf (t : Fin cfg0.N) (r : Fin 1024) : Fin 131072 :=
  ⟨t.val * 1024 + r.val, by have h : t.val < 128 := Nat.lt_of_lt_of_eq t.isLt N_0; have := r.isLt; omega⟩

@[simp] theorem rowOf_val (t : Fin cfg0.N) (r : Fin 1024) : (rowOf t r).val = t.val * 1024 + r.val := rfl

/-! ## Each input block, read where the arguments hold it -/

theorem blk0 (t : Fin cfg0.N) (r : Fin 1024) (k : Fin 512) :
    iblk m c 0 t (ix2 r k) = (m ((c : Thread nD τ).loc main_arg0)) (ix2 (rowOf t r) k) := by
  show V m c main_arg0 (((cfg0.win 0).blk t).view.emb (ix2 r k)) = _
  have e : ((cfg0.win 0).blk t).view.emb (ix2 r k) = ix2 (rowOf t r) k := funext fun a => Fin.ext (by
    obtain ⟨e0, e1⟩ := idx0 t
    match a with
    | ⟨0, _⟩ => show win0_0.index t (0 : Fin 2) * 1024 + 1 * r.val = t.val * 1024 + r.val; rw [e0]; omega
    | ⟨1, _⟩ => show win0_0.index t (1 : Fin 2) * 512 + 1 * k.val = k.val; rw [e1]; omega)
  exact (congrArg (V m c main_arg0) e).trans (congrFun (V_main_arg0 m c) _)

theorem blk1 (t : Fin cfg0.N) (r : Fin 1024) (k : Fin 512) :
    iblk m c 1 t (ix2 r k) = (m ((c : Thread nD τ).loc main_arg1)) (ix2 (rowOf t r) k) := by
  show V m c main_arg1 (((cfg0.win 1).blk t).view.emb (ix2 r k)) = _
  have e : ((cfg0.win 1).blk t).view.emb (ix2 r k) = ix2 (rowOf t r) k := funext fun a => Fin.ext (by
    obtain ⟨e0, e1⟩ := idx1 t
    match a with
    | ⟨0, _⟩ => show win0_1.index t (0 : Fin 2) * 1024 + 1 * r.val = t.val * 1024 + r.val; rw [e0]; omega
    | ⟨1, _⟩ => show win0_1.index t (1 : Fin 2) * 512 + 1 * k.val = k.val; rw [e1]; omega)
  exact (congrArg (V m c main_arg1) e).trans (congrFun (V_main_arg1 m c) _)

theorem blk2 (t : Fin cfg0.N) (r : Fin 1024) (z : Fin 1) :
    iblk m c 2 t (ix2 r z) = (m ((c : Thread nD τ).loc main_arg2)) (ix1 (rowOf t r)) := by
  show V m c main_v0 (((cfg0.win 2).blk t).view.emb (ix2 r z)) = _
  have e : ((cfg0.win 2).blk t).view.emb (ix2 r z) = ix2 (rowOf t r) z := funext fun a => Fin.ext (by
    obtain ⟨e0, e1⟩ := idx2 t
    match a with
    | ⟨0, _⟩ => show win0_2.index t (0 : Fin 2) * 1024 + 1 * r.val = t.val * 1024 + r.val; rw [e0]; omega
    | ⟨1, _⟩ => show win0_2.index t (1 : Fin 2) * 1 + 1 * z.val = z.val; rw [e1]; omega)
  exact (congrArg (V m c main_v0) e).trans (HostRead.V_v0_at m c (rowOf t r) z)

theorem blk3 (t : Fin cfg0.N) (u : Fin 1) (k : Fin 512) :
    iblk m c 3 t (ix2 u k) = (m ((c : Thread nD τ).loc main_arg3)) (ix1 (lo k)) := by
  show V m c main_v2 (((cfg0.win 3).blk t).view.emb (ix2 u k)) = _
  have e : ((cfg0.win 3).blk t).view.emb (ix2 u k) = ix2 u k := funext fun a => Fin.ext (by
    obtain ⟨e0, e1⟩ := idx3 t
    match a with
    | ⟨0, _⟩ => show win0_3.index t (0 : Fin 2) * 1 + 1 * u.val = u.val; rw [e0]; omega
    | ⟨1, _⟩ => show win0_3.index t (1 : Fin 2) * 512 + 1 * k.val = k.val; rw [e1]; omega)
  exact (congrArg (V m c main_v2) e).trans (HostRead.V_v2_at m c u k)

theorem blk4 (t : Fin cfg0.N) (u : Fin 1) (k : Fin 512) :
    iblk m c 4 t (ix2 u k) = (m ((c : Thread nD τ).loc main_arg3)) (ix1 (hi k)) := by
  show V m c main_v4 (((cfg0.win 4).blk t).view.emb (ix2 u k)) = _
  have e : ((cfg0.win 4).blk t).view.emb (ix2 u k) = ix2 u k := funext fun a => Fin.ext (by
    obtain ⟨e0, e1⟩ := idx4 t
    match a with
    | ⟨0, _⟩ => show win0_4.index t (0 : Fin 2) * 1 + 1 * u.val = u.val; rw [e0]; omega
    | ⟨1, _⟩ => show win0_4.index t (1 : Fin 2) * 512 + 1 * k.val = k.val; rw [e1]; omega)
  exact (congrArg (V m c main_v4) e).trans (HostRead.V_v4_at m c u k)

theorem blk5 (t : Fin cfg0.N) (u : Fin 1) (k : Fin 512) :
    iblk m c 5 t (ix2 u k) = (m ((c : Thread nD τ).loc main_arg4)) (ix1 (lo k)) := by
  show V m c main_v6 (((cfg0.win 5).blk t).view.emb (ix2 u k)) = _
  have e : ((cfg0.win 5).blk t).view.emb (ix2 u k) = ix2 u k := funext fun a => Fin.ext (by
    obtain ⟨e0, e1⟩ := idx5 t
    match a with
    | ⟨0, _⟩ => show win0_5.index t (0 : Fin 2) * 1 + 1 * u.val = u.val; rw [e0]; omega
    | ⟨1, _⟩ => show win0_5.index t (1 : Fin 2) * 512 + 1 * k.val = k.val; rw [e1]; omega)
  exact (congrArg (V m c main_v6) e).trans (HostRead.V_v6_at m c u k)

theorem blk6 (t : Fin cfg0.N) (u : Fin 1) (k : Fin 512) :
    iblk m c 6 t (ix2 u k) = (m ((c : Thread nD τ).loc main_arg4)) (ix1 (hi k)) := by
  show V m c main_v8 (((cfg0.win 6).blk t).view.emb (ix2 u k)) = _
  have e : ((cfg0.win 6).blk t).view.emb (ix2 u k) = ix2 u k := funext fun a => Fin.ext (by
    obtain ⟨e0, e1⟩ := idx6 t
    match a with
    | ⟨0, _⟩ => show win0_6.index t (0 : Fin 2) * 1 + 1 * u.val = u.val; rw [e0]; omega
    | ⟨1, _⟩ => show win0_6.index t (1 : Fin 2) * 512 + 1 * k.val = k.val; rw [e1]; omega)
  exact (congrArg (V m c main_v8) e).trans (HostRead.V_v8_at m c u k)

theorem blk7 (t : Fin cfg0.N) (k : Fin 512) (f : Fin 64) :
    iblk m c 7 t (ix2 k f) = (m ((c : Thread nD τ).loc main_arg5)) (ix2 f (lo k)) := by
  show V m c main_v11 (((cfg0.win 7).blk t).view.emb (ix2 k f)) = _
  have e : ((cfg0.win 7).blk t).view.emb (ix2 k f) = ix2 k f := funext fun a => Fin.ext (by
    obtain ⟨e0, e1⟩ := idx7 t
    match a with
    | ⟨0, _⟩ => show win0_7.index t (0 : Fin 2) * 512 + 1 * k.val = k.val; rw [e0]; omega
    | ⟨1, _⟩ => show win0_7.index t (1 : Fin 2) * 64 + 1 * f.val = f.val; rw [e1]; omega)
  exact (congrArg (V m c main_v11) e).trans (HostRead.V_v11_at m c k f)

theorem blk8 (t : Fin cfg0.N) (k : Fin 512) (f : Fin 64) :
    iblk m c 8 t (ix2 k f) = (m ((c : Thread nD τ).loc main_arg5)) (ix2 f (hi k)) := by
  show V m c main_v14 (((cfg0.win 8).blk t).view.emb (ix2 k f)) = _
  have e : ((cfg0.win 8).blk t).view.emb (ix2 k f) = ix2 k f := funext fun a => Fin.ext (by
    obtain ⟨e0, e1⟩ := idx8 t
    match a with
    | ⟨0, _⟩ => show win0_8.index t (0 : Fin 2) * 512 + 1 * k.val = k.val; rw [e0]; omega
    | ⟨1, _⟩ => show win0_8.index t (1 : Fin 2) * 64 + 1 * f.val = f.val; rw [e1]; omega)
  exact (congrArg (V m c main_v14) e).trans (HostRead.V_v14_at m c k f)

theorem blk9 (t : Fin cfg0.N) (u : Fin 1) (f : Fin 64) :
    iblk m c 9 t (ix2 u f) = (m ((c : Thread nD τ).loc main_arg6)) (ix1 f) := by
  show V m c main_v15 (((cfg0.win 9).blk t).view.emb (ix2 u f)) = _
  have e : ((cfg0.win 9).blk t).view.emb (ix2 u f) = ix2 u f := funext fun a => Fin.ext (by
    obtain ⟨e0, e1⟩ := idx9 t
    match a with
    | ⟨0, _⟩ => show win0_9.index t (0 : Fin 2) * 1 + 1 * u.val = u.val; rw [e0]; omega
    | ⟨1, _⟩ => show win0_9.index t (1 : Fin 2) * 64 + 1 * f.val = f.val; rw [e1]; omega)
  exact (congrArg (V m c main_v15) e).trans (HostRead.V_v15_at m c u f)

/-! ## The two results the region leaves -/

/-- The first result, and the second one as the column the region writes (the host reshapes it to a vector afterwards). -/
abbrev outG : S131072x512.Idx → EReal := Spec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
def gateCol : S131072x1.Idx → EReal := fun i => Spec.gateRow (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (i 0)

theorem gateCol_apply (n : Fin 131072) (z : Fin 1) :
    gateCol m c (ix2 n z) = Spec.gateRow (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) n := rfl

/-- Where the output blocks sit in their arrays. -/
theorem emb10 (t : Fin cfg0.N) (r : Fin 1024) (k : Fin 512) :
    ((cfg0.win 10).blk t).view.emb (ix2 r k) = ix2 (rowOf t r) k := funext fun a => Fin.ext (by
  obtain ⟨e0, e1⟩ := idx10 t
  match a with
  | ⟨0, _⟩ => show win0_10.index t (0 : Fin 2) * 1024 + 1 * r.val = t.val * 1024 + r.val; rw [e0]; omega
  | ⟨1, _⟩ => show win0_10.index t (1 : Fin 2) * 512 + 1 * k.val = k.val; rw [e1]; omega)

theorem emb11 (t : Fin cfg0.N) (r : Fin 1024) (z : Fin 1) :
    ((cfg0.win 11).blk t).view.emb (ix2 r z) = ix2 (rowOf t r) z := funext fun a => Fin.ext (by
  obtain ⟨e0, e1⟩ := idx11 t
  match a with
  | ⟨0, _⟩ => show win0_11.index t (0 : Fin 2) * 1024 + 1 * r.val = t.val * 1024 + r.val; rw [e0]; omega
  | ⟨1, _⟩ => show win0_11.index t (1 : Fin 2) * 1 + 1 * z.val = z.val; rw [e1]; omega)

/-- The row computation on row `r` of the blocks at point `t` is the gate of row `1024 t + r` of the arguments. -/
theorem gate_blocks (t : Fin cfg0.N) (r : Fin 1024) :
    RowSpec.gate (Pay.rowU (iblk m c 0 t) r) (Pay.rowP (iblk m c 1 t) r) (fun k => iblk m c 3 t (ix2 (0 : Fin 1) k))
        (fun k => iblk m c 4 t (ix2 (0 : Fin 1) k)) (fun k => iblk m c 5 t (ix2 (0 : Fin 1) k))
        (fun k => iblk m c 6 t (ix2 (0 : Fin 1) k)) (fun k f => iblk m c 7 t (ix2 k f)) (fun k f => iblk m c 8 t (ix2 k f))
        (fun f => iblk m c 9 t (ix2 (0 : Fin 1) f))
      = Spec.gateRow (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (rowOf t r) := by
  unfold Spec.gateRow
  rw [show Pay.rowU (iblk m c 0 t) r = (fun k => (m ((c : Thread nD τ).loc main_arg0)) (ix2 (rowOf t r) k)) from funext fun k => blk0 m c t r k,
    show Pay.rowP (iblk m c 1 t) r = (fun k => (m ((c : Thread nD τ).loc main_arg1)) (ix2 (rowOf t r) k)) from funext fun k => blk1 m c t r k]
  simp only [blk3, blk4, blk5, blk6, blk7, blk8, blk9]

/-- WHAT POINT `t` WRITES BACK to the first result is rows `1024 t …` of the specification. -/
theorem flushed10_eq (t : Fin cfg0.N) :
    (dats m 0 c).flushed 10 t = ((cfg0.win 10).blk t).view.read (Elt Ideal) (outG m c) := by
  show (cfg0.win 10).cut (grid0.coords t) ((dats m 0 c).after 10 t) = _
  rw [after0_10]
  unfold out0_10
  rw [View.canon_unit_zero hz]
  simp only [View.ld_unit_zero (S := S1024x512) hz, View.ld_unit_zero (S := S1x512) hz, View.ld_unit_zero (S := S512x64) hz,
    View.ld_unit_zero (S := S1x64) hz, View.ld_unit_zero (S := S1024x1) hz]
  funext j
  obtain ⟨r, k, rfl⟩ : ∃ (r : Fin 1024) (k : Fin 512), j = ix2 r k := ⟨j 0, j 1, eq_ix2 (n0 := 1024) (n1 := 512) j⟩
  show k0_pay2 (F := Ideal) (iblk m c 1 t) (k0_pay7 (F := Ideal) (iblk m c 0 t) (iblk m c 1 t) (iblk m c 3 t) (iblk m c 5 t))
      (k0_pay8 (F := Ideal) (iblk m c 0 t) (iblk m c 1 t) (iblk m c 4 t)) (iblk m c 6 t) (iblk m c 7 t) (iblk m c 8 t)
      (iblk m c 9 t) (iblk m c 2 t) (ix2 r k)
    = outG m c (((cfg0.win 10).blk t).view.emb (ix2 r k))
  refine (Pay.pay2_apply (iblk m c 0 t) (iblk m c 1 t) (iblk m c 3 t) (iblk m c 4 t) (iblk m c 5 t) (iblk m c 6 t)
    (iblk m c 7 t) (iblk m c 8 t) (iblk m c 9 t) (iblk m c 2 t) r k).trans ?_
  rw [emb10, gate_blocks, blk1, blk2]
  rfl

/-- WHAT POINT `t` WRITES BACK to the second result is rows `1024 t …` of the column of gates. -/
theorem flushed11_eq (t : Fin cfg0.N) :
    (dats m 0 c).flushed 11 t = ((cfg0.win 11).blk t).view.read (Elt Ideal) (gateCol m c) := by
  show (cfg0.win 11).cut (grid0.coords t) ((dats m 0 c).after 11 t) = _
  rw [after0_11]
  unfold out0_11
  rw [View.canon_unit_zero hz]
  simp only [View.ld_unit_zero (S := S1024x512) hz, View.ld_unit_zero (S := S1x512) hz, View.ld_unit_zero (S := S512x64) hz,
    View.ld_unit_zero (S := S1x64) hz]
  funext j
  obtain ⟨r, z, rfl⟩ : ∃ (r : Fin 1024) (z : Fin 1), j = ix2 r z := ⟨j 0, j 1, eq_ix2 (n0 := 1024) (n1 := 1) j⟩
  show k0_pay1 (F := Ideal) (k0_pay7 (F := Ideal) (iblk m c 0 t) (iblk m c 1 t) (iblk m c 3 t) (iblk m c 5 t))
      (k0_pay8 (F := Ideal) (iblk m c 0 t) (iblk m c 1 t) (iblk m c 4 t)) (iblk m c 6 t) (iblk m c 7 t) (iblk m c 8 t)
      (iblk m c 9 t) (ix2 r z)
    = gateCol m c (((cfg0.win 11).blk t).view.emb (ix2 r z))
  refine (Pay.pay1_apply (iblk m c 0 t) (iblk m c 1 t) (iblk m c 3 t) (iblk m c 4 t) (iblk m c 5 t) (iblk m c 6 t)
    (iblk m c 7 t) (iblk m c 8 t) (iblk m c 9 t) r z).trans ?_
  rw [emb11, gate_blocks]
  rfl

/-! ## The blocks cover the arrays -/

theorem mem_blk10 (t : Fin cfg0.N) (i : S131072x512.Idx) :
    i ∈ ((cfg0.win 10).blk t).view.set ↔ ∀ a : Fin 2, win0_10.index t a * S1024x512.size a ≤ (i a).val
      ∧ (i a).val < win0_10.index t a * S1024x512.size a + S1024x512.size a := by
  show i ∈ ((View.whole main_v16_0).slice (win0_10.rect t)).set ↔ _
  rw [View.set_slice_whole, Rect.mem_set_unit]
  exact Iff.rfl

theorem mem_blk11 (t : Fin cfg0.N) (i : S131072x1.Idx) :
    i ∈ ((cfg0.win 11).blk t).view.set ↔ ∀ a : Fin 2, win0_11.index t a * S1024x1.size a ≤ (i a).val
      ∧ (i a).val < win0_11.index t a * S1024x1.size a + S1024x1.size a := by
  show i ∈ ((View.whole main_v16_1).slice (win0_11.rect t)).set ↔ _
  rw [View.set_slice_whole, Rect.mem_set_unit]
  exact Iff.rfl

/-- Row `n` lies in the block of point `n / 1024`. -/
theorem cover10 (i : S131072x512.Idx) :
    ∃ t : Fin cfg0.N, (cfg0.win 10).flush t = true ∧ i ∈ ((cfg0.win 10).blk t).view.set := by
  have hi0 : (i 0).val < 131072 := (i 0).isLt
  have hi1 : (i 1).val < 512 := (i 1).isLt
  have hN : cfg0.N = 128 := N_0
  let t : Fin cfg0.N := ⟨(i 0).val / 1024, by rw [hN]; omega⟩
  have ht : t.val = (i 0).val / 1024 := rfl
  obtain ⟨e0, e1⟩ := idx10 t
  refine ⟨t, flush0_10 t, ?_⟩
  rw [mem_blk10]
  intro a
  match a with
  | ⟨0, _⟩ =>
    show win0_10.index t (0 : Fin 2) * 1024 ≤ (i 0).val ∧ (i 0).val < win0_10.index t (0 : Fin 2) * 1024 + 1024
    rw [e0, ht]; omega
  | ⟨1, _⟩ =>
    show win0_10.index t (1 : Fin 2) * 512 ≤ (i 1).val ∧ (i 1).val < win0_10.index t (1 : Fin 2) * 512 + 512
    rw [e1]; omega

theorem cover11 (i : S131072x1.Idx) :
    ∃ t : Fin cfg0.N, (cfg0.win 11).flush t = true ∧ i ∈ ((cfg0.win 11).blk t).view.set := by
  have hi0 : (i 0).val < 131072 := (i 0).isLt
  have hi1 : (i 1).val < 1 := (i 1).isLt
  have hN : cfg0.N = 128 := N_0
  let t : Fin cfg0.N := ⟨(i 0).val / 1024, by rw [hN]; omega⟩
  have ht : t.val = (i 0).val / 1024 := rfl
  obtain ⟨e0, e1⟩ := idx11 t
  refine ⟨t, flush0_11 t, ?_⟩
  rw [mem_blk11]
  intro a
  match a with
  | ⟨0, _⟩ =>
    show win0_11.index t (0 : Fin 2) * 1024 ≤ (i 0).val ∧ (i 0).val < win0_11.index t (0 : Fin 2) * 1024 + 1024
    rw [e0, ht]; omega
  | ⟨1, _⟩ =>
    show win0_11.index t (1 : Fin 2) * 1 ≤ (i 1).val ∧ (i 1).val < win0_11.index t (1 : Fin 2) * 1 + 1
    rw [e1]; omega

/-! ## The arrays after the run -/

theorem final10 : (dats m 0 c).arrAt 10 cfg0.N = outG m c :=
  (dats m 0 c).arrAt_eq_of_cover 10 (outG m c) (fun t _ => flushed10_eq m c t) (cover10)

theorem final11 : (dats m 0 c).arrAt 11 cfg0.N = gateCol m c :=
  (dats m 0 c).arrAt_eq_of_cover 11 (gateCol m c) (fun t _ => flushed11_eq m c t) (cover11)

end Cert.KernelIdeal.Blocks

end
-- ==== Proof.KernelRun.lean ====
/-
  The kernel's run, with both results named.

  The region leaves the first result's array and the column of gates at the specification (`KernelBlocks`); the one host
  operation after the region reshapes that column, `131072 × 1`, to a vector of 131072 entries, whose entry `n` is the
  column's entry `(n, 0)`: the gate of row `n`. The argument arrays end as they were launched: two of them are staged by
  windows that are never written back, the others are not touched by the region at all.
-/
import proofs.«148923_j56977036149411_2_alg».proof.Proof.Gen.KernelIdeal.Frame
import proofs.«148923_j56977036149411_2_alg».proof.Proof.KernelBlocks
import proofs.«148923_j56977036149411_2_alg».proof.Proof.LibVecLayout
import proofs.«148923_j56977036149411_2_alg».proof.Proof.Spec
import Idealize.ShloMosaic.Lib.StableHlo.Run
import Idealize.ShloMosaic.Lib.ValueIdx

noncomputable section

namespace Cert.KernelIdeal.RunValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The two results, as functions of the argument arrays as launched. -/
abbrev outSpec (c : Dev nD) : S131072x512.Idx → EReal :=
  Spec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
abbrev gateSpec (c : Dev nD) : S131072.Idx → EReal :=
  Spec.gateArr (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))

/-- After the host's reshape of the column of gates, the second result is the vector of gates. -/
theorem tail17 (c : Dev nD) :
    Pipeline.afterTail₀ cfgs (dats m) 0 (V0 m) [hostOps1] c main_v17 = gateSpec m c := by
  unfold Pipeline.afterTail₀
  show StableHlo.after hostOps1 _ (Proc.devRef .tc main_v17) = _
  after_results
  rw [(Pipeline.withArrays_arr spec0 launch0.win.arr_inj c _ _ 11).trans (Blocks.final11 m c)]
  funext i
  obtain ⟨n, rfl⟩ : ∃ n : Fin 131072, i = ix1 n := ⟨i 0, eq_ix1 i⟩
  exact LibVecLayout.shapeCast_a1_a_apply _ _ n

/-- Every weakly fair execution of the kernel's program terminates with both results at the specification and the
    arguments unchanged. -/
theorem run : θ_run defs (onTc (τ := τ) (main (F := Ideal))) ⟨m, fun _ => 0, ρ⟩ fun r => ∀ c : Dev nD,
      r.2.mem ((c.tc : Thread nD τ).loc main_v16_0) = outSpec m c
      ∧ r.2.mem ((c.tc : Thread nD τ).loc main_v17) = gateSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 10).trans (Blocks.final10 m c),
      ((h c).2 main_v17 (Pipeline.mem_restRefs_of main_v17 (by decide) (by decide))).trans (tail17 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RunValue

end
-- ==== Proof.LibIdxOfCoords.lean ====
/-
  An index is the constructor of its coordinates.

  A multi-index of a literal shape is a function of the axis; two such functions are equal when their coordinates are
  equal as numbers. These lemmas name an index `j` of rank 1, 2 or 3 as `ix1` / `ix2` / `ix3` of given coordinates
  from one equation of values per axis — the form in which a composed layout index (a slice of a reshape of a
  broadcast …) is usually known: each coordinate an arithmetic expression that `rfl` or `omega` identifies.
-/
import Idealize.ShloMosaic.Lib.ValueIdx

namespace Cert.IdxOfCoords

open Idealize.ShloMosaic Idealize.ShloMosaic.ValueIdx

/-- A rank-1 index whose coordinate has the value of `a` is `ix1 a`. -/
theorem ix1_of {n : Nat} (j : (⟨1, ![n]⟩ : Shape).Idx) (a : Fin n) (h : (j 0).val = a.val) : j = ix1 a :=
  funext fun d => match d with | ⟨0, _⟩ => Fin.ext h

/-- A rank-2 index whose coordinates have the values of `a` and `b` is `ix2 a b`. -/
theorem ix2_of {n0 n1 : Nat} (j : (⟨2, ![n0, n1]⟩ : Shape).Idx) (a : Fin n0) (b : Fin n1)
    (h0 : (j 0).val = a.val) (h1 : (j 1).val = b.val) : j = ix2 a b :=
  funext fun d => match d with | ⟨0, _⟩ => Fin.ext h0 | ⟨1, _⟩ => Fin.ext h1

/-- A rank-3 index whose coordinates have the values of `a`, `b` and `c` is `ix3 a b c`. -/
theorem ix3_of {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => match d with | ⟨0, _⟩ => Fin.ext h0 | ⟨1, _⟩ => Fin.ext h1 | ⟨2, _⟩ => Fin.ext h2

end Cert.IdxOfCoords
-- ==== Proof.RefSpec.lean ====
/-
  The reference computes the specification.

  Read one operation at a time, row `n` of the reference is the full-row computation of `RowSpec` on the row
  `x = [A0 (n, ·) | A1 (n, ·)]` of the concatenation: its mean and variance are sums over the 1024 entries of `x` divided
  by 1024, every entry is normalised, scaled by `A3`, shifted by `A4` and clipped at zero, the 64 linear outputs contract
  the clipped row with the rows of `A5`, and the gate is the mean of `1 / (1 + exp (-l))` over them. Entry `k` of the
  concatenated row is `A0 (n, k)` for `k < 512` and `A1 (n, k - 512)` from there on, so by `RowSpec.gateFull_eq` the gate is
  `Spec.gateRow n`, and the first result is `A1 (n, k) · gate n · A2 n`.
-/
import proofs.«148923_j56977036149411_2_alg».proof.Proof.Gen.ReferenceIdeal.Read
import proofs.«148923_j56977036149411_2_alg».proof.Proof.Spec
import proofs.«148923_j56977036149411_2_alg».proof.Proof.LibIdxOfCoords
import Idealize.ShloMosaic.Lib.ValueIdx
import Idealize.ShloMosaic.Lib.Pipeline.Value

open scoped BigOperators

noncomputable section

namespace Cert.ReferenceIdeal.RefSpec

open Idealize.ShloMosaic Idealize.ShloMosaic.ValueIdx Cert.ReferenceIdeal Cert.ReferenceIdeal.Read Cert.RowSpec
open Cert.IdxOfCoords (ix1_of ix2_of)

variable (x0 x1 : (⟨S131072x512, .f32⟩ : BufTy).Contents (Elt Ideal)) (x2 : (⟨S131072, .f32⟩ : BufTy).Contents (Elt Ideal))
  (x3 x4 : (⟨S1024, .f32⟩ : BufTy).Contents (Elt Ideal)) (x5 : (⟨S64x1024, .f32⟩ : BufTy).Contents (Elt Ideal))
  (x6 : (⟨S64, .f32⟩ : BufTy).Contents (Elt Ideal))

/-- The lower half of a row of the concatenation is the row of the first operand. -/
theorem cat_lo (n : Fin 131072) (k : Fin 512) : val_main_v0 (F := Ideal) x0 x1 (ix2 n (lo k)) = x0 (ix2 n k) := by
  unfold val_main_v0
  exact concatenate_pair_apply_left (1 : Fin 2) x0 x1 _ (ix2 n (lo k)) rfl (ix2 n k)
    (fun b => match b with | ⟨0, _⟩ => rfl | ⟨1, _⟩ => rfl)

/-- The upper half is the row of the second operand: column `512 + k` of the concatenation is its column `k`. -/
theorem cat_hi (n : Fin 131072) (k : Fin 512) : val_main_v0 (F := Ideal) x0 x1 (ix2 n (hi k)) = x1 (ix2 n k) := by
  unfold val_main_v0
  exact concatenate_pair_apply_right (1 : Fin 2) x0 x1 _ (ix2 n (hi k)) rfl rfl (ix2 n k)
    (fun b hb => match b, hb with | ⟨0, _⟩, _ => rfl | ⟨1, _⟩, hb => absurd rfl hb)
    (by show k.val + 512 = 512 + k.val; omega)

/-- Row `n` of the concatenation. -/
abbrev rowX (n : Fin 131072) : Fin 1024 → EReal := fun k => val_main_v0 (F := Ideal) x0 x1 (ix2 n k)

/-- The row's parameters: scale, shift, the matrix read column by column, the bias. -/
abbrev parW : Fin 1024 → EReal := fun k => x3 (ix1 k)
abbrev parB : Fin 1024 → EReal := fun k => x4 (ix1 k)
abbrev parM : Fin 1024 → Fin 64 → EReal := fun k f => x5 (ix2 f k)
abbrev parBeta : Fin 64 → EReal := fun f => x6 (ix1 f)

/-- The mean, kept as a column. -/
theorem v4_at (n : Fin 131072) (z : Fin 1) :
    val_main_v4 (F := Ideal) x0 x1 (ix2 n z) = meanFull (rowX x0 x1 n) := by
  rw [val_main_v4_apply, val_main_v2_apply, val_main_v3_apply, val_main_cst_0_apply, val_main_v1_apply, val_main_cst_apply]
  have e : ∀ k, idx_main_v1 (idx_main_v2 (ix2 n z)) k = ix2 n k := fun k => ix2_of _ n k rfl rfl
  simp only [e]
  rfl

/-- The mean broadcast back along the row (it is broadcast twice, once for the variance and once for the output). -/
theorem v5_at (n : Fin 131072) (k : Fin 1024) :
    val_main_v5 (F := Ideal) x0 x1 (ix2 n k) = meanFull (rowX x0 x1 n) := by
  rw [val_main_v5_apply, show idx_main_v5 (ix2 n k) = ix2 n (0 : Fin 1) from ix2_of _ n 0 rfl rfl, v4_at]

theorem v12_at (n : Fin 131072) (k : Fin 1024) :
    val_main_v12 (F := Ideal) x0 x1 (ix2 n k) = meanFull (rowX x0 x1 n) := by
  rw [val_main_v12_apply, show idx_main_v12 (ix2 n k) = ix2 n (0 : Fin 1) from ix2_of _ n 0 rfl rfl, v4_at]

/-- The reciprocal standard deviation, kept as a column. -/
theorem v16_at (n : Fin 131072) (z : Fin 1) :
    val_main_v16 (F := Ideal) x0 x1 (ix2 n z) = invFull (rowX x0 x1 n) := by
  rw [val_main_v16_apply, val_main_v15_apply, val_main_v11_apply, val_main_v14_apply, val_main_cst_3_apply,
    val_main_v9_apply, val_main_v10_apply, val_main_cst_2_apply, val_main_v8_apply, val_main_cst_1_apply]
  have e : ∀ k, idx_main_v8 (idx_main_v9 (ix2 n z)) k = ix2 n k := fun k => ix2_of _ n k rfl rfl
  simp only [e, val_main_v7_apply, val_main_v6_apply, v5_at]
  rfl

/-- The normalised, scaled, shifted and clipped entry `k` of row `n`. -/
theorem v25_at (n : Fin 131072) (k : Fin 1024) :
    val_main_v25 (F := Ideal) x0 x1 x3 x4 (ix2 n k) = hFull (rowX x0 x1 n) (parW x3) (parB x4) k := by
  rw [val_main_v25_apply, val_main_v24_apply, val_main_v21_apply, val_main_v18_apply, val_main_v13_apply, v12_at,
    val_main_v17_apply, show idx_main_v17 (ix2 n k) = ix2 n (0 : Fin 1) from ix2_of _ n 0 rfl rfl, v16_at,
    val_main_v20_apply, val_main_v19_apply, val_main_v23_apply, val_main_v22_apply, val_main_call0_v0_apply,
    val_main_call0_cst_apply,
    show idx_main_v19 (idx_main_v20 (ix2 n k)) = ix1 k from ix1_of _ k rfl,
    show idx_main_v22 (idx_main_v23 (ix2 n k)) = ix1 k from ix1_of _ k rfl]
  rfl

/-- Linear output `f` of row `n`. -/
theorem v30_at (n : Fin 131072) (f : Fin 64) :
    val_main_v30 (F := Ideal) x0 x1 x3 x4 x5 x6 (ix2 n f)
      = logitFull (rowX x0 x1 n) (parW x3) (parB x4) (parM x5) (parBeta x6) f := by
  rw [val_main_v30_apply, val_main_v27_apply, val_main_v29_apply, val_main_v28_apply,
    show idx_main_v28 (idx_main_v29 (ix2 n f)) = ix1 f from ix1_of _ f rfl]
  have el : ∀ k, lidx_main_v27 (ix2 n f) k = ix2 n k := fun k => ix2_of _ n k rfl rfl
  have er : ∀ k, ridx_main_v27 (ix2 n f) k = ix2 k f := fun k => ix2_of _ k f rfl rfl
  have e26 : ∀ k : Fin 1024, idx_main_v26 (ix2 k f) = ix2 f k := fun k => ix2_of _ f k rfl rfl
  simp only [el, er, v25_at, val_main_v26_apply, e26]
  rfl

/-- The gate of row `n`, in the full-row spelling. -/
theorem v39_at (n : Fin 131072) :
    val_main_v39 (F := Ideal) x0 x1 x3 x4 x5 x6 (ix1 n)
      = gateFull (rowX x0 x1 n) (parW x3) (parB x4) (parM x5) (parBeta x6) := by
  rw [val_main_v39_apply, val_main_v37_apply, val_main_cst_6_apply, val_main_v38_apply, val_main_cst_7_apply]
  have e : ∀ k, idx_main_v37 (ix1 n) k = ix2 n k := fun k => ix2_of _ n k rfl rfl
  simp only [e, val_main_v36_apply, val_main_v35_apply, val_main_cst_5_apply, val_main_v34_apply, val_main_v33_apply,
    val_main_cst_4_apply, val_main_v32_apply, val_main_v31_apply, v30_at]
  rfl

/-- The reference's gate of row `n` is the specification's. -/
theorem gate_at (n : Fin 131072) :
    val_main_v39 (F := Ideal) x0 x1 x3 x4 x5 x6 (ix1 n) = Spec.gateRow x0 x1 x3 x4 x5 x6 n := by
  rw [v39_at, gateFull_eq]
  unfold Spec.gateRow
  simp only [cat_lo, cat_hi]

/-- The reference's first result at `(n, k)` is the specification's. -/
theorem out_at (n : Fin 131072) (k : Fin 512) :
    val_main_v45 (F := Ideal) x0 x1 x2 x3 x4 x5 x6 (ix2 n k)
      = x1 (ix2 n k) * Spec.gateRow x0 x1 x3 x4 x5 x6 n * x2 (ix1 n) := by
  rw [val_main_v45_apply, val_main_v42_apply, val_main_v41_apply, val_main_v40_apply, val_main_v44_apply, val_main_v43_apply,
    show idx_main_v40 (idx_main_v41 (ix2 n k)) = ix1 n from ix1_of _ n rfl,
    show idx_main_v43 (idx_main_v44 (ix2 n k)) = ix1 n from ix1_of _ n rfl, gate_at]
  rfl

/-- The reference's two results, as whole arrays, are the specification's. -/
theorem gate_eq : val_main_v39 (F := Ideal) x0 x1 x3 x4 x5 x6 = Spec.gateArr x0 x1 x3 x4 x5 x6 := by
  funext i
  obtain ⟨n, rfl⟩ : ∃ n : Fin 131072, i = ix1 n := ⟨i 0, eq_ix1 i⟩
  exact gate_at x0 x1 x3 x4 x5 x6 n

theorem out_eq : val_main_v45 (F := Ideal) x0 x1 x2 x3 x4 x5 x6 = Spec.outArr x0 x1 x2 x3 x4 x5 x6 := by
  funext i
  obtain ⟨n, k, rfl⟩ : ∃ (n : Fin 131072) (k : Fin 512), i = ix2 n k := ⟨i 0, i 1, eq_ix2 i⟩
  exact out_at x0 x1 x2 x3 x4 x5 x6 n k

end Cert.ReferenceIdeal.RefSpec

end
-- ==== Proof.lean ====
/-
  The kernel and the reference compute one function on the extended reals.

  Each of 131072 rows is the concatenation `x = [u | p]` of a row of the first argument and a row of the second (512
  entries each). Both programs normalise `x` by its mean and variance over the 1024 entries, scale and shift it by two
  parameter vectors, clip it at zero, contract it with a 64 × 1024 matrix, add a bias, and take the mean of the sigmoids of
  the 64 outputs: the row's gate. The results are `p · gate · a` (`a` the row's scalar) and the vector of gates.

  The reference works on the concatenated row: sums over 1024 entries, divided by 1024, one contraction over 1024, the sigmoid
  spelt `1 / (1 + exp (-l))`. The kernel works on blocks of 1024 rows and never forms `x`: each sum over the row is the sum
  over `u` plus the sum over `p`, multiplied by `2⁻¹⁰`; the parameters and the matrix are cut into their halves; the
  contraction is two contractions over 512 added up. The two agree because a sum over 1024 entries is the sum over its two
  halves (addition on the extended reals is commutative and associative, so no value need be finite), because dividing
  by 1024 is multiplying by `2⁻¹⁰` for every extended real, and because the sigmoid is by definition `1 / (1 + exp (-l))`;
  every other step is the same operation applied to equal values. The precondition is therefore not used.

  `RowSpec` states one row both ways and proves them equal; `Spec` states the two results as arrays; `RefSpec` reads the
  reference, `KernelPay`, `KernelHost`, `KernelBlocks` and `KernelRun` the kernel: its arithmetic at an index, the arrays the
  host builds for it, the 128 blocks it writes, and the reshape after it.
-/
import proofs.«148923_j56977036149411_2_alg».proof.Defs
import proofs.«148923_j56977036149411_2_alg».proof.Proof.Gen.Kernel
import proofs.«148923_j56977036149411_2_alg».proof.Proof.Gen.Kernel.Skeleton
import proofs.«148923_j56977036149411_2_alg».proof.Proof.Gen.Kernel.Launch
import proofs.«148923_j56977036149411_2_alg».proof.Proof.Gen.Kernel.Points
import proofs.«148923_j56977036149411_2_alg».proof.Proof.Gen.Kernel.Frame
import proofs.«148923_j56977036149411_2_alg».proof.Proof.Gen.KernelIdeal
import proofs.«148923_j56977036149411_2_alg».proof.Proof.Gen.KernelIdeal.Skeleton
import proofs.«148923_j56977036149411_2_alg».proof.Proof.Gen.KernelIdeal.Launch
import proofs.«148923_j56977036149411_2_alg».proof.Proof.Gen.KernelIdeal.Points
import proofs.«148923_j56977036149411_2_alg».proof.Proof.Gen.KernelIdeal.Frame
import proofs.«148923_j56977036149411_2_alg».proof.Proof.Gen.ReferenceIdeal
import proofs.«148923_j56977036149411_2_alg».proof.Proof.Gen.ReferenceIdeal.Run
import proofs.«148923_j56977036149411_2_alg».proof.Proof.Gen.ReferenceIdeal.Read
import proofs.«148923_j56977036149411_2_alg».proof.Proof.Gen.Pre_finite_inputs
import proofs.«148923_j56977036149411_2_alg».proof.Proof.KernelRun
import proofs.«148923_j56977036149411_2_alg».proof.Proof.RefSpec
import Idealize.ShloMosaic.Adequacy
import Idealize.ShloMosaic.Init

noncomputable section

namespace Cert.Proof

open Idealize.ShloMosaic Idealize.SL.Sem

/-- The kernel's program as printed runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments unchanged: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation of the kernel was rewritten for the reading on the extended reals. -/
theorem preserves : Cert.preserves_Kernel_KernelIdeal := trivial

/-- From memories that agree on the arguments both programs end with the first result at `p · gate · a` and the second at
    the vector of gates of the arguments: the kernel by its blocks, the reference operation by operation. -/
theorem algebraic : Cert.algebraic_KernelIdeal_ReferenceIdeal := by
  intro m ρ m' ρ' _ hagree
  refine ⟨fun c => Cert.KernelIdeal.RunValue.outSpec m c, fun c => Cert.KernelIdeal.RunValue.gateSpec m c,
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v45_eq, Cert.ReferenceIdeal.RefSpec.out_eq, a0, a1, a2, a3, a4, a5, a6]
  · obtain ⟨a0, a1, a2, a3, a4, a5, a6⟩ := hagree c
    rw [Cert.ReferenceIdeal.Read.val_main_v39_eq, Cert.ReferenceIdeal.RefSpec.gate_eq, a0, a1, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
